-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64x1 : S_.BroadcastsInDim S4096x64x1 (![] : Fin 0 → Fin S4096x64x1.rank)
  reducesTo_S4096x64x1_S_d0_1_2 : S4096x64x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x64x1 .f32) (main_arg2 : FVec F S4096x64x1 .f32) (main_arg3 : FVec F S4096 .f32) (main_arg4 : FVec F S4096 .f32) (main_arg5 : FVec F S4096 .f32) (main_arg6 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64x1 .f32 := Host.absf main_arg1
  let main_cst_0 : FVec F S_ .f32 := constant S_ .f32 0x7F800000#32
  let main_v5 : FVec F S4096x64x1 .f32 := broadcastInDim S4096x64x1 ![] bcast_S_S4096x64x1 main_cst_0
  let main_v6 : IVec S4096x64x1 1 := cmpf .olt main_v4 main_v5
  let main_c_1 : IVec S_ 1 := constantI S_ 1 1#1
  let main_v7 : IVec S_ 1 := (fun x v => Host.reduce IntOp.andi x v reducesTo_S4096x64x1_S_d0_1_2 h_S_) main_v6 main_c_1
  let main_v8 : IVec S_ 1 := andi main_v3 main_v7
  let main_v9 : FVec F S4096x64x1 .f32 := Host.absf main_arg2
  let main_cst_2 : FVec F S_ .f32 := constant S_ .f32 0x7F800000#32
  let main_v10 : FVec F S4096x64x1 .f32 := broadcastInDim S4096x64x1 ![] bcast_S_S4096x64x1 main_cst_2
  let main_v11 : IVec S4096x64x1 1 := cmpf .olt main_v9 main_v10
  let main_c_3 : IVec S_ 1 := constantI S_ 1 1#1
  let main_v12 : IVec S_ 1 := (fun x v => Host.reduce IntOp.andi x v reducesTo_S4096x64x1_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S4096x64 : Shape := ⟨2, ![4096, 64]⟩
abbrev S1x4096 : Shape := ⟨2, ![1, 4096]⟩
abbrev S4096x1 : Shape := ⟨2, ![4096, 1]⟩
abbrev S256x4096 : Shape := ⟨2, ![256, 4096]⟩
abbrev S256x64 : Shape := ⟨2, ![256, 64]⟩
abbrev S256x1 : Shape := ⟨2, ![256, 1]⟩
abbrev S256x64x64 : Shape := ⟨3, ![256, 64, 64]⟩
abbrev S256x64x1 : Shape := ⟨3, ![256, 64, 1]⟩
abbrev S8192x4096 : Shape := ⟨2, ![8192, 4096]⟩
abbrev S1024x256 : Shape := ⟨2, ![1024, 256]⟩
abbrev S4096x256 : Shape := ⟨2, ![4096, 256]⟩
abbrev S1024x4096 : Shape := ⟨2, ![1024, 4096]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x64x1, .f32⟩
  | .hbm, ⟨2, _⟩ => ⟨S4096x64x1, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .i32⟩
  | .hbm, ⟨7, _⟩ => ⟨S4096x64, .f32⟩
  | .hbm, ⟨8, _⟩ => ⟨S4096x64, .f32⟩
  | .hbm, ⟨9, _⟩ => ⟨S1x4096, .f32⟩
  | .hbm, ⟨10, _⟩ => ⟨S4096x1, .f32⟩
  | .hbm, ⟨11, _⟩ => ⟨S1x4096, .f32⟩
  | .hbm, ⟨12, _⟩ => ⟨S4096x4096, .bf16⟩
  | .hbm, ⟨13, _⟩ => ⟨S8192x4096, .f32⟩
  | .hbm, ⟨14, _⟩ => ⟨S8192x4096, .f32⟩
  | .hbm, ⟨15, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S1x4096, .f32⟩
  | .local _ .vmem, ⟨7, _⟩ => ⟨S256x1, .f32⟩
  | .local _ .vmem, ⟨8, _⟩ => ⟨S256x1, .f32⟩
  | .local _ .vmem, ⟨9, _⟩ => ⟨S256x4096, .bf16⟩
  | .local _ .vmem, ⟨10, _⟩ => ⟨S256x4096, .bf16⟩
  | .local _ .vmem, ⟨11, _⟩ => ⟨S1024x256, .f32⟩
  | .local _ .vmem, ⟨12, _⟩ => ⟨S1024x256, .f32⟩
  | .local _ .vmem, ⟨13, _⟩ => ⟨S4096x256, .bf16⟩
  | .local _ .vmem, ⟨14, _⟩ => ⟨S4096x256, .bf16⟩
  | .local _ .vmem, ⟨15, _⟩ => ⟨S1x4096, .f32⟩
  | .local _ .vmem, ⟨16, _⟩ => ⟨S1024x4096, .f32⟩
  | .local _ .vmem, ⟨17, _⟩ => ⟨S1024x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4096x64x1_S4096x64 : S4096x64x1.ShapeCasts S4096x64
  shapeCasts_S4096_S1x4096 : S4096.ShapeCasts S1x4096
  shapeCasts_S4096_S4096x1 : S4096.ShapeCasts S4096x1
  inb_S256x4096_S256x4096_0_0 : ∀ a, (![0, 0] : Fin 2 → Nat) a + S256x4096.size a ≤ S256x4096.size a
  h_S256x4096 : 0 < S256x4096.numel
  shapeCasts_S256x4096_S256x64x64 : S256x4096.ShapeCasts S256x64x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S1024x4096_S1024x4096 : S1024x4096.ShapeCasts S1024x4096
  broadcasts_S1x4096_S1024x4096 : S1x4096.Broadcasts S1024x4096
  shapeCasts_S8192x4096_S4x2048x4096 : S8192x4096.ShapeCasts S4x2048x4096
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S8192x4096.size a
  hwx1_3 : ∀ i : grid1.Coords, EltTy.bits .f32 = 32 ∨ (Rect.block (s := S8192x4096) S1024x4096.size (cc1_transform_3 i) (hinb1_3 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg6) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S4096x64x64 : Shape := ⟨3, ![4096, 64, 64]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64x1, .f32⟩
  | .hbm, ⟨2, _⟩ => ⟨S4096x64x1, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .i32⟩
  | .hbm, ⟨7, _⟩ => ⟨S4096x4096, .f32⟩
  | .hbm, ⟨8, _⟩ => ⟨S4096x64x64, .f32⟩
  | .hbm, ⟨9, _⟩ => ⟨S4096x64x64, .f32⟩
  | .hbm, ⟨10, _⟩ => ⟨S4096x64x64, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.ValueRun.lean ====
/-
  The idealized kernel program's run with its RESULT named: @main is five segments (a stretch of host reshapes, the
  dequantization region, one reshape, the matrix-product region, one reshape), and at the end of every weakly fair
  execution each unscoped buffer holds what the fold of those segments over the launch memory leaves there. The
  frame keeps of that only the argument arrays; here the result buffer is kept too, at the fold's last stage.
-/
import proofs.«172664_j64330020159902_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last stage of the
    fold of @main's segments over the launch memory, and the seven argument arrays end as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.LibSplitLast.lean ====
/-
  Splitting the last axis of a matrix into two and merging them again, read at an index. An `[a, n]` matrix with
  `n = b·c` cast to `[a, b, c]` holds at `(p, g, e)` the matrix's entry `(p, g·c + e)`; an `[a, b, c]` array cast
  to `[a, n]` holds at `(p, g·c + e)` the array's entry `(p, g, e)`: the row-major position is the same. General in
  the extents.
-/
import Idealize.ShloMosaic.Lib.Pipeline.Value
import Idealize.ShloMosaic.Lib.ValueIdx

noncomputable section

namespace Cert.LibSplitLast

open Idealize.ShloMosaic Idealize.ShloMosaic.ValueIdx

variable {α : Type}

/-- An `[a, n]` matrix (with `n = b·c`) cast to `[a, b, c]` reads, at `(p, g, e)`, the matrix at `(p, q)` with `q = g·c + e`. -/
theorem shapeCast_an_abc_apply {a b c n : ℕ} (x : (⟨2, ![a, n]⟩ : Shape).Idx → α)
    (h : (⟨2, ![a, n]⟩ : Shape).ShapeCasts ⟨3, ![a, b, c]⟩) (hn : n = b * c) (p : Fin a) (g : Fin b) (e : Fin c) (q : Fin n)
    (hq : q.val = g.val * c + e.val) : shapeCast ⟨3, ![a, b, c]⟩ x h (ix3 p g e) = x (ix2 p q) :=
  shapeCast_apply x h _ _ (by
    rw [Shape.rowMajor_val_two, Shape.rowMajor_val_three]
    show p.val * n + q.val = (p.val * b + g.val) * c + e.val
    rw [hq, hn, Nat.add_mul, Nat.mul_assoc, Nat.add_assoc])

/-- An `[a, b, c]` array cast to `[a, n]` (with `n = b·c`) reads, at `(p, q)` with `q = g·c + e`, the array at `(p, g, e)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (p : Fin a) (g : Fin b) (e : Fin c) (q : Fin n)
    (hq : q.val = g.val * c + e.val) : shapeCast ⟨2, ![a, n]⟩ x h (ix2 p q) = x (ix3 p g e) :=
  shapeCast_apply x h _ _ (by
    rw [Shape.rowMajor_val_two, Shape.rowMajor_val_three]
    show (p.val * b + g.val) * c + e.val = p.val * n + q.val
    rw [hq, hn, Nat.add_mul, Nat.mul_assoc, Nat.add_assoc])

end Cert.LibSplitLast

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibBlockSum.lean ====
/-
  A finite sum over `Fin n` with `n = a * b` regrouped into `a` consecutive blocks of length `b`: the sum of the
  block sums. It holds in every commutative additive monoid, in particular on the extended reals, where
  it needs no finiteness: only associativity and commutativity of `+` are used.
-/
import Mathlib.Algebra.BigOperators.Fin
import Mathlib.Logic.Equiv.Fin.Basic

namespace Cert.LibBlockSum

open Finset

/-- Position `j` of block `i` among `a` blocks of length `b`: `i * b + j`. -/
def pos {a b n : ℕ} (h : a * b = n) (i : Fin a) (j : Fin b) : Fin n :=
  ⟨i.val * b + j.val, by
    subst h
    have h1 : i.val * b + j.val < (i.val + 1) * b := by
      rw [Nat.add_one_mul]; exact Nat.add_lt_add_left j.isLt _
    exact lt_of_lt_of_le h1 (Nat.mul_le_mul_right b i.isLt)⟩

@[simp] theorem pos_val {a b n : ℕ} (h : a * b = n) (i : Fin a) (j : Fin b) :
    (pos h i j).val = i.val * b + j.val := rfl

/-- The sum over all positions is the sum over the blocks of each block's sum. -/
theorem sum_blocks {M : Type*} [AddCommMonoid M] {a b n : ℕ} (h : a * b = n) (f : Fin n → M) :
    ∑ k : Fin n, f k = ∑ i : Fin a, ∑ j : Fin b, f (pos h i j) := by
  subst h
  rw [← Fintype.sum_prod_type' (fun i j => f (pos rfl i j))]
  refine (Equiv.sum_comp (finProdFinEquiv (m := a) (n := b)) f).symm.trans ?_
  refine Fintype.sum_congr _ _ fun p => congrArg f (Fin.ext ?_)
  show (p.2 : ℕ) + b * (p.1 : ℕ) = (p.1 : ℕ) * b + (p.2 : ℕ)
  rw [Nat.mul_comm, Nat.add_comm]

end Cert.LibBlockSum
-- ==== Proof.Spec.lean ====
/-
  The mathematics of the quantized linear layer, on the extended reals.

  The dequantized weight at (k, n) is ((q(k, n) − zero(k, n / 64)) · scale(k, n / 64)) · mu2(k) · mu1(n): columns come
  in 64 groups of 64, each group of a row with its own zero point and scale, and rows and columns are then rescaled.
  The layer's result at (b, s, k) is Σₙ x(b, s, n) · W(k, n) + bias(k), a sum over 4096 columns.

  A kernel that walks the 4096 columns in sixteen consecutive steps of 256, adding each step's partial sum to a
  running total, ends at the same sum: regrouping a finite sum into consecutive blocks uses only that addition is
  associative and commutative, so it holds on the extended reals with no finiteness assumption.
-/
import Idealize.ShloMosaic.PureOps.Ideal
import Idealize.ShloMosaic.Lib.ValueIdx
import proofs.«172664_j64330020159902_2_alg».proof.Proof.LibBlockSum

noncomputable section

open scoped BigOperators

namespace Cert.Spec

open Idealize.ShloMosaic Idealize.ShloMosaic.ValueIdx Finset

/-! ## A sum over 4096 positions taken in sixteen steps of 256 -/

section Blocks

variable {M : Type*} [AddCommMonoid M]

/-- A family over the 4096 positions read at a natural position: zero past the end. -/
def at4096 (f : Fin 4096 → M) (n : ℕ) : M := if h : n < 4096 then f ⟨n, h⟩ else 0

theorem at4096_of_lt (f : Fin 4096 → M) (n : ℕ) (h : n < 4096) : at4096 f n = f ⟨n, h⟩ := dif_pos h

/-- Step j's partial sum: positions 256 j … 256 j + 255. -/
def stepSum (f : Fin 4096 → M) (j : ℕ) : M := ∑ n : Fin 256, at4096 f (j * 256 + n.val)

/-- The running total after steps 0 … j. -/
def runSum (f : Fin 4096 → M) (j : ℕ) : M := ∑ jj ∈ range (j + 1), stepSum f jj

theorem runSum_zero (f : Fin 4096 → M) : runSum f 0 = stepSum f 0 := by
  unfold runSum; rw [Finset.sum_range_one]

theorem runSum_succ (f : Fin 4096 → M) (j : ℕ) : runSum f (j + 1) = runSum f j + stepSum f (j + 1) := by
  unfold runSum; rw [Finset.sum_range_succ]

/-- After the sixteenth step the running total is the whole sum. -/
theorem runSum_last (f : Fin 4096 → M) : runSum f 15 = ∑ q : Fin 4096, f q := by
  unfold runSum stepSum
  rw [Finset.sum_range (fun j => ∑ n : Fin 256, at4096 f (j * 256 + n.val)),
    Cert.LibBlockSum.sum_blocks (show 16 * 256 = 4096 from rfl) f]
  refine Finset.sum_congr rfl fun j _ => Finset.sum_congr rfl fun n _ => ?_
  exact at4096_of_lt f _ (by have := j.isLt; have := n.isLt; omega)

end Blocks

/-! ## The layer -/

/-- The group of 64 columns that column n lies in. -/
def grp (n : Fin 4096) : Fin 64 := ⟨n.val / 64, by have := n.isLt; omega⟩

/-- The dequantized, rescaled weight at (k, n), from the argument arrays. -/
def wd (sc zr : (⟨3, ![4096, 64, 1]⟩ : Shape).Idx → EReal) (mu1 mu2 : (⟨1, ![4096]⟩ : Shape).Idx → EReal)
    (wq : (⟨⟨2, ![4096, 4096]⟩, .i32⟩ : BufTy).Contents (Elt Ideal)) (k n : Fin 4096) : EReal :=
  ((FloatOps.sitofp (F := Ideal) .f32 (wq (ix2 k n)) - zr (ix3 k (grp n) (0 : Fin 1))) * sc (ix3 k (grp n) (0 : Fin 1)))
    * mu2 (ix1 k) * mu1 (ix1 n)

/-- The layer's result at (b, s, k). -/
def out (x : (⟨3, ![4, 2048, 4096]⟩ : Shape).Idx → EReal) (sc zr : (⟨3, ![4096, 64, 1]⟩ : Shape).Idx → EReal)
    (mu1 mu2 bias : (⟨1, ![4096]⟩ : Shape).Idx → EReal) (wq : (⟨⟨2, ![4096, 4096]⟩, .i32⟩ : BufTy).Contents (Elt Ideal))
    (b : Fin 4) (s : Fin 2048) (k : Fin 4096) : EReal :=
  (∑ n : Fin 4096, x (ix3 b s n) * wd sc zr mu1 mu2 wq k n) + bias (ix1 k)

/-- The layer's result as a whole array. -/
def res (x : (⟨3, ![4, 2048, 4096]⟩ : Shape).Idx → EReal) (sc zr : (⟨3, ![4096, 64, 1]⟩ : Shape).Idx → EReal)
    (mu1 mu2 bias : (⟨1, ![4096]⟩ : Shape).Idx → EReal) (wq : (⟨⟨2, ![4096, 4096]⟩, .i32⟩ : BufTy).Contents (Elt Ideal)) :
    (⟨3, ![4, 2048, 4096]⟩ : Shape).Idx → EReal :=
  fun i => out x sc zr mu1 mu2 bias wq ⟨(i 0).val, (i 0).isLt⟩ ⟨(i 1).val, (i 1).isLt⟩ ⟨(i 2).val, (i 2).isLt⟩

theorem res_apply (x : (⟨3, ![4, 2048, 4096]⟩ : Shape).Idx → EReal) (sc zr : (⟨3, ![4096, 64, 1]⟩ : Shape).Idx → EReal)
    (mu1 mu2 bias : (⟨1, ![4096]⟩ : Shape).Idx → EReal) (wq : (⟨⟨2, ![4096, 4096]⟩, .i32⟩ : BufTy).Contents (Elt Ideal))
    (b : Fin 4) (s : Fin 2048) (k : Fin 4096) :
    res x sc zr mu1 mu2 bias wq (ix3 b s k) = out x sc zr mu1 mu2 bias wq b s k := rfl

end Cert.Spec

end
-- ==== Proof.Dequant.lean ====
/-
  The dequantization region, read as values on the extended reals.

  The grid is 16 points; point t handles rows 256·t … 256·t + 255 of the weight. It loads those rows of the integer
  weight, of the per-group scales and zero points (64 groups per row) and of the row factors mu2 (a column), and the
  whole row of column factors mu1. Entry (p, q) of what it stores is
  ((q(p, q) − zero(p, q / 64)) · scale(p, q / 64)) · mu2(p) · mu1(q): the 4096 columns are regrouped as 64 groups of
  64, each group's zero point and scale repeated along it, and regrouped back. Every point writes its block back, and
  the blocks tile the array, so the array ends at that function of the arrays the region reads.
-/
import proofs.«172664_j64330020159902_2_alg».proof.Proof.Gen.KernelIdeal.Frame
import proofs.«172664_j64330020159902_2_alg».proof.Proof.LibSplitLast
import proofs.«172664_j64330020159902_2_alg».proof.Proof.LibPairAxes
import proofs.«172664_j64330020159902_2_alg».proof.Proof.LibKeepdims
import proofs.«172664_j64330020159902_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Deq

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

/-- A rectangle at the origin of a matrix. -/
theorem hz : (![0, 0] : Fin 2 → Nat) = fun _ => 0 := funext fun a => by fin_cases a <;> rfl

/-! ## One point's stored value at an entry -/

/-- Entry (p, q) of the stored block, from the loaded blocks: the integer weight converted, minus its group's zero
    point, times its group's scale, times the row factor, times the column factor. -/
theorem pay_apply (v0 : Vec Ideal S256x4096 .i32) (v3 v6 : Vec Ideal S256x64 .f32) (v14 : Vec Ideal S256x1 .f32)
    (v18 : Vec Ideal S1x4096 .f32) (p : Fin 256) (q : Fin 4096) :
    k0_pay1 (F := Ideal) v0 v3 v6 v14 v18 (ix2 p q)
      = ((FloatOps.sitofp (F := Ideal) .f32 (v0 (ix2 p q)) - v6 (ix2 p (grp q))) * v3 (ix2 p (grp q)))
          * v14 (ix2 p (0 : Fin 1)) * v18 (ix2 (0 : Fin 1) q) := by
  have hq : q.val = (grp q).val * 64 + (⟨q.val % 64, Nat.mod_lt _ (by decide)⟩ : Fin 64).val := by
    show q.val = q.val / 64 * 64 + q.val % 64
    omega
  unfold k0_pay1
  simp only [shapeCast_self]
  change (shapeCast S256x4096 _ shapeCasts_S256x64x64_S256x4096 (ix2 p q) : EReal)
    * (broadcastTo S256x4096 v14 broadcasts_S256x1_S256x4096 (ix2 p q))
    * (broadcastTo S256x4096 v18 broadcasts_S1x4096_S256x4096 (ix2 p q)) = _
  rw [Cert.LibSplitLast.shapeCast_abc_an_apply _ shapeCasts_S256x64x64_S256x4096 rfl p (grp q)
      (⟨q.val % 64, Nat.mod_lt _ (by decide)⟩ : Fin 64) q hq,
    Cert.LibKeepdims.broadcastTo_a1_ab_apply v14 broadcasts_S256x1_S256x4096 p q,
    broadcastTo_1b_ab_apply v18 broadcasts_S1x4096_S256x4096 p q]
  change ((shapeCast S256x64x64 _ shapeCasts_S256x4096_S256x64x64 (ix3 p (grp q) (⟨q.val % 64, Nat.mod_lt _ (by decide)⟩ : Fin 64)) : EReal)
      - broadcastTo S256x64x64 (shapeCast S256x64x1 v6 shapeCasts_S256x64_S256x64x1) broadcasts_S256x64x1_S256x64x64
          (ix3 p (grp q) (⟨q.val % 64, Nat.mod_lt _ (by decide)⟩ : Fin 64)))
    * (broadcastTo S256x64x64 (shapeCast S256x64x1 v3 shapeCasts_S256x64_S256x64x1) broadcasts_S256x64x1_S256x64x64
          (ix3 p (grp q) (⟨q.val % 64, Nat.mod_lt _ (by decide)⟩ : Fin 64)))
    * _ * _ = _
  rw [Cert.LibSplitLast.shapeCast_an_abc_apply _ shapeCasts_S256x4096_S256x64x64 rfl p (grp q)
      (⟨q.val % 64, Nat.mod_lt _ (by decide)⟩ : Fin 64) q hq,
    Cert.LibPairAxes.bcast_cast_ab1 v6, Cert.LibPairAxes.bcast_cast_ab1 v3]
  rfl

/-! ## The arrays the region reads, and their blocks -/

variable (V : (c : Dev nD) → (b : Ref sig .tc) → Buf (Elt Ideal) ((c : Thread nD τ).loc b))

/-- The arrays as the region finds them: the integer weight, the scales and zero points (one per row and group), the
    column factors as a row and the row factors as a column. -/
abbrev Q (c : Dev nD) : (⟨S4096x4096, .i32⟩ : BufTy).Contents (Elt Ideal) := V c main_arg6
abbrev Sc (c : Dev nD) : S4096x64.Idx → EReal := V c main_v0
abbrev Z (c : Dev nD) : S4096x64.Idx → EReal := V c main_v1
abbrev M1 (c : Dev nD) : S1x4096.Idx → EReal := V c main_v2
abbrev M2 (c : Dev nD) : S4096x1.Idx → EReal := V c main_v3
/-- Their blocks at point t. -/
abbrev bQ (c : Dev nD) (t : Fin cfg0.N) : Vec Ideal S256x4096 .i32 := iblk0 V c 0 t
abbrev bSc (c : Dev nD) (t : Fin cfg0.N) : S256x64.Idx → EReal := iblk0 V c 1 t
abbrev bZ (c : Dev nD) (t : Fin cfg0.N) : S256x64.Idx → EReal := iblk0 V c 2 t
abbrev bM1 (c : Dev nD) (t : Fin cfg0.N) : S1x4096.Idx → EReal := iblk0 V c 3 t
abbrev bM2 (c : Dev nD) (t : Fin cfg0.N) : S256x1.Idx → EReal := iblk0 V c 4 t

/-- Where each window's block sits at point t: row block t for every window but the column factors' row, which stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem bQ_read (c : Dev nD) (t : Fin cfg0.N) (p : Fin 256) (q : Fin 4096) (K : Fin 4096) (hK : K.val = 256 * t.val + p.val) :
    bQ V c t (ix2 p q) = Q V c (ix2 K q) := by
  show (iblk0 V c 0 t : Vec Ideal S256x4096 .i32) (ix2 p q) = V c main_arg6 (ix2 K q)
  unfold iblk0
  rw [View.read_apply]
  show V c main_arg6 (((cfg0.win 0).blk t).view.emb (ix2 p q)) = V c main_arg6 (ix2 K q)
  obtain ⟨e0, e1, -⟩ := idx_facts t
  refine congrArg (V c main_arg6) (funext fun a => Fin.ext ?_)
  match a with
  | ⟨0, _⟩ => show win0_0.index t (0 : Fin 2) * 256 + 1 * p.val = K.val; rw [e0, hK]; omega
  | ⟨1, _⟩ => show win0_0.index t (1 : Fin 2) * 4096 + 1 * q.val = q.val; rw [e1]; omega

theorem bSc_read (c : Dev nD) (t : Fin cfg0.N) (p : Fin 256) (g : Fin 64) (K : Fin 4096) (hK : K.val = 256 * t.val + p.val) :
    bSc V c t (ix2 p g) = Sc V c (ix2 K g) := by
  show (iblk0 V c 1 t : Vec Ideal S256x64 .f32) (ix2 p g) = V c main_v0 (ix2 K g)
  unfold iblk0
  rw [View.read_apply]
  show V c main_v0 (((cfg0.win 1).blk t).view.emb (ix2 p g)) = V c main_v0 (ix2 K g)
  obtain ⟨-, -, e0, e1, -⟩ := idx_facts t
  refine congrArg (V c main_v0) (funext fun a => Fin.ext ?_)
  match a with
  | ⟨0, _⟩ => show win0_1.index t (0 : Fin 2) * 256 + 1 * p.val = K.val; rw [e0, hK]; omega
  | ⟨1, _⟩ => show win0_1.index t (1 : Fin 2) * 64 + 1 * g.val = g.val; rw [e1]; omega

theorem bZ_read (c : Dev nD) (t : Fin cfg0.N) (p : Fin 256) (g : Fin 64) (K : Fin 4096) (hK : K.val = 256 * t.val + p.val) :
    bZ V c t (ix2 p g) = Z V c (ix2 K g) := by
  show (iblk0 V c 2 t : Vec Ideal S256x64 .f32) (ix2 p g) = V c main_v1 (ix2 K g)
  unfold iblk0
  rw [View.read_apply]
  show V c main_v1 (((cfg0.win 2).blk t).view.emb (ix2 p g)) = V c main_v1 (ix2 K g)
  obtain ⟨-, -, -, -, e0, e1, -⟩ := idx_facts t
  refine congrArg (V c main_v1) (funext fun a => Fin.ext ?_)
  match a with
  | ⟨0, _⟩ => show win0_2.index t (0 : Fin 2) * 256 + 1 * p.val = K.val; rw [e0, hK]; omega
  | ⟨1, _⟩ => show win0_2.index t (1 : Fin 2) * 64 + 1 * g.val = g.val; rw [e1]; omega

theorem bM1_read (c : Dev nD) (t : Fin cfg0.N) (q : Fin 4096) :
    bM1 V c t (ix2 (0 : Fin 1) q) = M1 V c (ix2 (0 : Fin 1) q) := by
  show (iblk0 V c 3 t : Vec Ideal S1x4096 .f32) (ix2 (0 : Fin 1) q) = V c main_v2 (ix2 (0 : Fin 1) q)
  unfold iblk0
  rw [View.read_apply]
  show V c main_v2 (((cfg0.win 3).blk t).view.emb (ix2 (0 : Fin 1) q)) = V c main_v2 (ix2 (0 : Fin 1) q)
  obtain ⟨-, -, -, -, -, -, e0, e1, -⟩ := idx_facts t
  refine congrArg (V c main_v2) (funext fun a => Fin.ext ?_)
  match a with
  | ⟨0, _⟩ => show win0_3.index t (0 : Fin 2) * 1 + 1 * 0 = 0; rw [e0]
  | ⟨1, _⟩ => show win0_3.index t (1 : Fin 2) * 4096 + 1 * q.val = q.val; rw [e1]; omega

theorem bM2_read (c : Dev nD) (t : Fin cfg0.N) (p : Fin 256) (K : Fin 4096) (hK : K.val = 256 * t.val + p.val) :
    bM2 V c t (ix2 p (0 : Fin 1)) = M2 V c (ix2 K (0 : Fin 1)) := by
  show (iblk0 V c 4 t : Vec Ideal S256x1 .f32) (ix2 p (0 : Fin 1)) = V c main_v3 (ix2 K (0 : Fin 1))
  unfold iblk0
  rw [View.read_apply]
  show V c main_v3 (((cfg0.win 4).blk t).view.emb (ix2 p (0 : Fin 1))) = V c main_v3 (ix2 K (0 : Fin 1))
  obtain ⟨-, -, -, -, -, -, -, -, e0, e1, -⟩ := idx_facts t
  refine congrArg (V c main_v3) (funext fun a => Fin.ext ?_)
  match a with
  | ⟨0, _⟩ => show win0_4.index t (0 : Fin 2) * 256 + 1 * p.val = K.val; rw [e0, hK]; omega
  | ⟨1, _⟩ => show win0_4.index t (1 : Fin 2) * 1 + 1 * 0 = 0; rw [e1]

/-! ## What is written back, and the array at the region's exit -/

/-- The dequantized, rescaled weight at (k, n), from the arrays the region reads. -/
def wdV (c : Dev nD) (k n : Fin 4096) : EReal :=
  ((FloatOps.sitofp (F := Ideal) .f32 (Q V c (ix2 k n)) - Z V c (ix2 k (grp n))) * Sc V c (ix2 k (grp n)))
    * M2 V c (ix2 k (0 : Fin 1)) * M1 V c (ix2 (0 : Fin 1) n)

/-- The result array as one function of the arrays the region reads. -/
def G (c : Dev nD) : Buf (Elt Ideal) ((c : Thread nD τ).loc main_v5) :=
  fun i => wdV V c ⟨(i 0).val, (i 0).isLt⟩ ⟨(i 1).val, (i 1).isLt⟩

theorem G_apply (c : Dev nD) (k n : Fin 4096) : G V c (ix2 k n) = wdV V c k n := rfl

/-- Every point writes back its 256 rows of `G`. -/
theorem flushed_eq (c : Dev nD) (t : Fin cfg0.N) :
    (dat0 V c).flushed 5 t = ((cfg0.win 5).blk t).view.read (Elt Ideal) (G V c) := by
  have hN : t.val < 16 := lt_of_lt_of_eq t.isLt N_0
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S256x4096) hz, View.ld_unit_zero (S := S256x64) hz, View.ld_unit_zero (S := S256x1) hz,
    View.ld_unit_zero (S := S1x4096) hz]
  funext j
  obtain ⟨p, q, rfl⟩ : ∃ (p : Fin 256) (q : Fin 4096), j = ix2 p q :=
    ⟨⟨(j 0).val, (j 0).isLt⟩, ⟨(j 1).val, (j 1).isLt⟩, funext fun a => by match a with | ⟨0, _⟩ => rfl | ⟨1, _⟩ => rfl⟩
  have hemb : ((cfg0.win 5).blk t).view.emb (ix2 p q) = ix2 (⟨256 * t.val + p.val, by have := p.isLt; omega⟩ : Fin 4096) q :=
    funext fun a => Fin.ext (by
      match a with
      | ⟨0, _⟩ => show win0_5.index t (0 : Fin 2) * 256 + 1 * p.val = 256 * t.val + p.val; rw [e0]; omega
      | ⟨1, _⟩ => show win0_5.index t (1 : Fin 2) * 4096 + 1 * q.val = q.val; rw [e1]; omega)
  show k0_pay1 (F := Ideal) (bQ V c t) (bSc V c t) (bZ V c t) (bM2 V c t) (bM1 V c t) (ix2 p q)
    = G V c (((cfg0.win 5).blk t).view.emb (ix2 p q))
  refine (pay_apply (bQ V c t) (bSc V c t) (bZ V c t) (bM2 V c t) (bM1 V c t) p q).trans ?_
  rw [hemb, G_apply, bQ_read V c t p q ⟨256 * t.val + p.val, by have := p.isLt; omega⟩ rfl,
    bSc_read V c t p (grp q) ⟨256 * t.val + p.val, by have := p.isLt; omega⟩ rfl,
    bZ_read V c t p (grp q) ⟨256 * t.val + p.val, by have := p.isLt; omega⟩ rfl,
    bM2_read V c t p ⟨256 * t.val + p.val, by have := p.isLt; omega⟩ rfl, bM1_read V c t q]
  rfl

/-- An index of the result array is in point t's block iff each coordinate is in the block's range on its axis. -/
theorem mem_blk (t : Fin cfg0.N) (i : S4096x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v5).slice (win0_5.rect t)).set ↔ _
  rw [View.set_slice_whole, Rect.mem_set_unit]
  exact Iff.rfl

/-- Row k lies in the block of point k / 256. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  let t : Fin cfg0.N := ⟨(i 0).val / 256, lt_of_lt_of_eq (by omega : (i 0).val / 256 < 16) N_0.symm⟩
  have ht : t.val = (i 0).val / 256 := rfl
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 4096 ≤ (i 1).val ∧ (i 1).val < win0_5.index t (1 : Fin 2) * 4096 + 4096
    rw [e1]; omega

/-- At the region's exit the weight array holds the dequantized, rescaled weight of the arrays the region read. -/
theorem final (c : Dev nD) : (dat0 V c).arrAt 5 cfg0.N = G V c :=
  (dat0 V c).arrAt_eq_of_cover 5 (G V c) (fun t _ => flushed_eq V c t) (cover)

end Cert.KernelIdeal.Deq

end
-- ==== Proof.MatmulCases.lean ====
/-
  What one grid point of the matrix-product kernel leaves in its output block, in each of its three control cases,
  as a function of the blocks it loads. At the first step of a row tile (case A) the block is reset to zero and the
  step's product added to it; at a middle step (case B) the product is added to what the block held; at the last
  step (case C) the product is added and then the bias row. Each case stores the whole block, so what the buffer
  holds afterwards is the last store's value, and a load that follows a store reads that store's value.
-/
import proofs.«172664_j64330020159902_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen
open Idealize.ShloMosaic Idealize.ShloMosaic.TcCoe Idealize.SL.Sem

variable {F : FTy → Type} [FloatOps F]

/-- A rectangle at the origin of a matrix. -/
theorem hz : (![0, 0] : Fin 2 → Nat) = fun _ => 0 := funext fun a => by fin_cases a <;> rfl

/-- A middle step: the block ends at (what it held) + (this step's product). -/
theorem out_B (c : Dev nD) (i : grid1.Coords) (a2 : Memref sig .tc .vmem S1024x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S1024x4096 .f32) (h5 : a5.IsWhole) (hc0 : ¬cond1_0 i) (hc1 : ¬cond1_1 i)
    (x0 : Vec F S1024x256 .f32) (x1 : Vec F S4096x256 .bf16) (x2 : Vec F S1x4096 .f32) (xo3 : Vec F S1024x4096 .f32) :
    out1_B_3 c i a2 h2 a3 h3 a4 h4 a5 h5 hc0 hc1 x0 x1 x2 xo3 = k1_pay2 x0 x1 xo3 := by
  unfold out1_B_3
  rw [View.read_writes_eq_canon _ _ _ (cover1_B_3 c i a2 h2 a3 h3 a4 h4 a5 h5 hc0 hc1 x0 x1 x2 xo3)]
  unfold kernelRun1_B
  dsimp only
  rw [View.canon_unit_zero hz]
  simp only [View.readAt_eq_ld, h2.read_unread, h3.read_unread, h5.read_unread, View.ld_unit_zero (S := S1024x256) hz,
    View.ld_unit_zero (S := S4096x256) hz, View.ld_unit_zero (S := S1024x4096) hz]

/-- The first step of a row tile: the block ends at (zero) + (this step's product). -/
theorem out_A (c : Dev nD) (i : grid1.Coords) (a2 : Memref sig .tc .vmem S1024x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S1024x4096 .f32) (h5 : a5.IsWhole) (hc0 : cond1_0 i) (hc1 : ¬cond1_1 i)
    (x0 : Vec F S1024x256 .f32) (x1 : Vec F S4096x256 .bf16) (x2 : Vec F S1x4096 .f32) :
    out1_A_3 c i a2 h2 a3 h3 a4 h4 a5 h5 hc0 hc1 x0 x1 x2 = k1_pay2 x0 x1 (k1_pay1 (F := F)) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S1024x4096) hz, View.readCov_unit_zero (S := S1024x4096) _ hz]
  simp only [View.readAt_eq_ld, h2.read_unread, h3.read_unread, View.ld_unit_zero (S := S1024x256) hz,
    View.ld_unit_zero (S := S4096x256) hz, View.ld_unit_zero (S := S1024x4096) hz]

/-- The last step of a row tile: the block ends at ((what it held) + (this step's product)) + (the bias row). -/
theorem out_C (c : Dev nD) (i : grid1.Coords) (a2 : Memref sig .tc .vmem S1024x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S1024x4096 .f32) (h5 : a5.IsWhole) (hc0 : ¬cond1_0 i) (hc1 : cond1_1 i)
    (x0 : Vec F S1024x256 .f32) (x1 : Vec F S4096x256 .bf16) (x2 : Vec F S1x4096 .f32) (xo3 : Vec F S1024x4096 .f32) :
    out1_C_3 c i a2 h2 a3 h3 a4 h4 a5 h5 hc0 hc1 x0 x1 x2 xo3 = k1_pay3 (k1_pay2 x0 x1 xo3) x2 := by
  unfold out1_C_3
  rw [View.read_writes_eq_canon _ _ _ (cover1_C_3 c i a2 h2 a3 h3 a4 h4 a5 h5 hc0 hc1 x0 x1 x2 xo3)]
  unfold kernelRun1_C
  dsimp only
  sl_unfold_words
  rw [View.canon_cons_unit_zero (S := S1024x4096) hz, View.readCov_unit_zero (S := S1024x4096) _ hz]
  simp only [View.readAt_eq_ld, h2.read_unread, h3.read_unread, h4.read_unread, h5.read_unread,
    View.ld_unit_zero (S := S1024x256) hz, View.ld_unit_zero (S := S4096x256) hz, View.ld_unit_zero (S := S1x4096) hz,
    View.ld_unit_zero (S := S1024x4096) hz]

end Cert.KernelIdeal.Cases

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.MatmulStep.lean ====
/-
  One step of the matrix-product kernel read at an entry, on the extended reals (where a change of float format is
  the identity). The reset block is zero everywhere. The accumulating step adds to the block's entry (r, k) the
  partial inner product of row r of the activation block with row k of the weight block (both operands are
  contracted on their columns). The closing step adds entry k of the bias row.
-/
import proofs.«172664_j64330020159902_2_alg».proof.Proof.Gen.KernelIdeal.Skeleton
import proofs.«172664_j64330020159902_2_alg».proof.Proof.LibTransposedMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Step

open Cert.KernelIdeal Cert.KernelIdeal.Gen
open Idealize.ShloMosaic Idealize.ShloMosaic.ValueIdx

/-- The reset block is zero at every entry. -/
theorem pay1_apply (i : S1024x4096.Idx) : k1_pay1 (F := Ideal) i = 0 := by
  unfold k1_pay1
  show Ideal.ofBits .f32 0x00000000#32 = 0
  exact Ideal.ofBits_zero_f32

/-- The accumulating step at entry (r, k): what the block held there plus Σₙ x(r, n) · w(k, n) over the step's
    256 columns. -/
theorem pay2_apply (x0 : Vec Ideal S1024x256 .f32) (x1 : Vec Ideal S4096x256 .bf16) (xo : Vec Ideal S1024x4096 .f32)
    (r : Fin 1024) (k : Fin 4096) :
    k1_pay2 (F := Ideal) x0 x1 xo (ix2 r k) = xo (ix2 r k) + ∑ n : Fin 256, x0 (ix2 r n) * x1 (ix2 k n) := by
  unfold k1_pay2
  simp only [shapeCast_self]
  change xo (ix2 r k) + _ = _
  refine congrArg (xo (ix2 r k) + ·) ?_
  exact Cert.LibTransposedMatmul.matmul_zero_apply (a := 1024) (n := 256) (b := 4096) none x0 x1 r k

/-- The closing step at entry (r, k): the block's entry plus the bias row at k. -/
theorem pay3_apply (v : Vec Ideal S1024x4096 .f32) (x2 : Vec Ideal S1x4096 .f32) (r : Fin 1024) (k : Fin 4096) :
    k1_pay3 (F := Ideal) v x2 (ix2 r k) = v (ix2 r k) + x2 (ix2 (0 : Fin 1) k) := by
  unfold k1_pay3
  simp only [shapeCast_self]
  change v (ix2 r k) + _ = _
  refine congrArg (v (ix2 r k) + ·) ?_
  exact broadcastTo_1b_ab_apply (a := 1024) (b := 4096) x2 broadcasts_S1x4096_S1024x4096 r k

end Cert.KernelIdeal.Step

end
-- ==== Proof.MatmulAcc.lean ====
/-
  The matrix-product region, read as values on the extended reals.

  The grid is 8 row tiles × 16 column steps, walked row tile by row tile. At point t (row tile t / 16, step t % 16) the
  kernel loads rows 1024·(t / 16) … of the activations at columns 256·(t % 16) …, all 4096 rows of the weight at the
  same columns, and the bias row; its output block (the row tile, all 4096 output columns) stays in place across
  the sixteen steps and is written back after the last. By induction on the point, the block's entry (r, k) after
  step j holds the running total of Σₙ x(R, n) · w(k, n) over the first 256·(j + 1) columns (R the array row), plus
  the bias at k after the last step. So the array written back is x · wᵀ + bias.
-/
import proofs.«172664_j64330020159902_2_alg».proof.Proof.Gen.KernelIdeal.Frame
import proofs.«172664_j64330020159902_2_alg».proof.Proof.MatmulCases
import proofs.«172664_j64330020159902_2_alg».proof.Proof.MatmulStep
import proofs.«172664_j64330020159902_2_alg».proof.Proof.Spec
import Idealize.ShloMosaic.Lib.Pipeline.Value
import Idealize.ShloMosaic.Lib.ValueIdx

set_option maxRecDepth 16384

noncomputable section

open scoped BigOperators

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

variable (V : (c : Dev nD) → (b : Ref sig .tc) → Buf (Elt Ideal) ((c : Thread nD τ).loc b))

/-- The three arrays the region reads, as the region finds them, as functions into the extended reals: the activations
    (8192 rows of 4096), the dequantized weight (4096 rows of 4096) and the bias row. -/
abbrev X (c : Dev nD) : S8192x4096.Idx → EReal := V c main_v6
abbrev Wm (c : Dev nD) : S4096x4096.Idx → EReal := V c main_v5
abbrev Bs (c : Dev nD) : S1x4096.Idx → EReal := V c main_v4
/-- Their blocks at point t. -/
abbrev bX (c : Dev nD) (t : Fin cfg1.N) : S1024x256.Idx → EReal := iblk1 V c 0 t
abbrev bW (c : Dev nD) (t : Fin cfg1.N) : S4096x256.Idx → EReal := iblk1 V c 1 t
abbrev bB (c : Dev nD) (t : Fin cfg1.N) : S1x4096.Idx → EReal := iblk1 V c 2 t

/-- Where each window's block sits at point t: the activations' at (t / 16, t % 16), the weight's at (0, t % 16), the
    bias row's at (0, 0), the output's at (t / 16, 0). Decided over the 128 points. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The activation block at point t, entry (r, n): the activations at row 1024·(t / 16) + r, column 256·(t % 16) + n. -/
theorem blk0_read (c : Dev nD) (t : Fin cfg1.N) (r : Fin 1024) (n : Fin 256) (R : Fin 8192) (q : Fin 4096)
    (hR : R.val = 1024 * (t.val / 16) + r.val) (hq : q.val = (t.val % 16) * 256 + n.val) :
    bX V c t (ix2 r n) = X V c (ix2 R q) := by
  show (iblk1 V c 0 t : Vec Ideal S1024x256 .f32) (ix2 r n) = V c main_v6 (ix2 R q)
  unfold iblk1
  rw [View.read_apply]
  show V c main_v6 (((cfg1.win 0).blk t).view.emb (ix2 r n)) = V c main_v6 (ix2 R q)
  obtain ⟨e0, e1, -⟩ := idx_facts t
  refine congrArg (V c main_v6) (funext fun a => Fin.ext ?_)
  match a with
  | ⟨0, _⟩ => show win1_0.index t (0 : Fin 2) * 1024 + 1 * r.val = R.val; rw [e0, hR]; omega
  | ⟨1, _⟩ => show win1_0.index t (1 : Fin 2) * 256 + 1 * n.val = q.val; rw [e1, hq]; omega

/-- The weight block at point t, entry (k, n): the weight at row k, column 256·(t % 16) + n. -/
theorem blk1_read (c : Dev nD) (t : Fin cfg1.N) (k : Fin 4096) (n : Fin 256) (q : Fin 4096)
    (hq : q.val = (t.val % 16) * 256 + n.val) :
    bW V c t (ix2 k n) = Wm V c (ix2 k q) := by
  show (iblk1 V c 1 t : Vec Ideal S4096x256 .bf16) (ix2 k n) = V c main_v5 (ix2 k q)
  unfold iblk1
  rw [View.read_apply]
  show V c main_v5 (((cfg1.win 1).blk t).view.emb (ix2 k n)) = V c main_v5 (ix2 k q)
  obtain ⟨-, -, e0, e1, -⟩ := idx_facts t
  refine congrArg (V c main_v5) (funext fun a => Fin.ext ?_)
  match a with
  | ⟨0, _⟩ => show win1_1.index t (0 : Fin 2) * 4096 + 1 * k.val = k.val; rw [e0]; omega
  | ⟨1, _⟩ => show win1_1.index t (1 : Fin 2) * 256 + 1 * n.val = q.val; rw [e1, hq]; omega

/-- The bias block at any point is the bias row. -/
theorem blk2_read (c : Dev nD) (t : Fin cfg1.N) (k : Fin 4096) :
    bB V c t (ix2 (0 : Fin 1) k) = Bs V c (ix2 (0 : Fin 1) k) := by
  show (iblk1 V c 2 t : Vec Ideal S1x4096 .f32) (ix2 (0 : Fin 1) k) = V c main_v4 (ix2 (0 : Fin 1) k)
  unfold iblk1
  rw [View.read_apply]
  show V c main_v4 (((cfg1.win 2).blk t).view.emb (ix2 (0 : Fin 1) k)) = V c main_v4 (ix2 (0 : Fin 1) k)
  obtain ⟨-, -, -, -, e0, e1, -⟩ := idx_facts t
  refine congrArg (V c main_v4) (funext fun a => Fin.ext ?_)
  match a with
  | ⟨0, _⟩ => show win1_2.index t (0 : Fin 2) * 1 + 1 * 0 = 0; rw [e0]
  | ⟨1, _⟩ => show win1_2.index t (1 : Fin 2) * 4096 + 1 * k.val = k.val; rw [e1]; omega

/-! ## One step at an entry, case by case -/

/-- The products summed at array row R and output column k, one per column q. -/
def prod (c : Dev nD) (R : Fin 8192) (k : Fin 4096) : Fin 4096 → EReal :=
  fun q => X V c (ix2 R q) * Wm V c (ix2 k q)

/-- The step's partial inner product at (r, k) is step (t % 16)'s share of the products at array row R. -/
theorem step_sum (c : Dev nD) (t : Fin cfg1.N) (r : Fin 1024) (k : Fin 4096) (R : Fin 8192)
    (hR : R.val = 1024 * (t.val / 16) + r.val) :
    (∑ n : Fin 256, bX V c t (ix2 r n) * bW V c t (ix2 k n))
      = stepSum (prod V c R k) (t.val % 16) := by
  unfold stepSum
  refine Finset.sum_congr rfl fun n _ => ?_
  have hlt : (t.val % 16) * 256 + n.val < 4096 := by have := n.isLt; omega
  rw [at4096_of_lt _ _ hlt]
  exact congrArg₂ (· * ·) (blk0_read V c t r n R ⟨_, hlt⟩ hR rfl) (blk1_read V c t k n ⟨_, hlt⟩ rfl)

/-- At the first step of a row tile the block's entry is zero plus the step's partial inner product. -/
theorem at_A (c : Dev nD) (t : Fin cfg1.N) (h0 : t.val % 16 = 0) (h1 : ¬t.val % 16 = 15) (r : Fin 1024) (k : Fin 4096) :
    outsAt1 V c t.val t.isLt (ix2 r k)
      = 0 + ∑ n : Fin 256, bX V c t (ix2 r n) * bW V c t (ix2 k n) := by
  have e := (outsAt1_A V c t h0 h1).trans (Cases.out_A c (grid1.coords t) (ms1_0 t) (hs1_0 t) (ms1_1 t) (hs1_1 t) (ms1_2 t) (hs1_2 t)
    (ms1_3 t) (hs1_3 t) ((hcond1_0 t).mpr h0) (fun h => h1 ((hcond1_1 t).mp h)) (iblk1 V c 0 t) (iblk1 V c 1 t) (iblk1 V c 2 t))
  rw [congrFun e (ix2 r k), Step.pay2_apply, Step.pay1_apply]

/-- At a middle step it is what the point before left plus the step's partial inner product. -/
theorem at_B (c : Dev nD) (t : Fin cfg1.N) (h0 : ¬t.val % 16 = 0) (h1 : ¬t.val % 16 = 15) (r : Fin 1024) (k : Fin 4096) :
    outsAt1 V c t.val t.isLt (ix2 r k)
      = outsAt1 V c (t.val - 1) (Nat.lt_of_le_of_lt (Nat.sub_le _ _) t.isLt) (ix2 r k)
        + ∑ n : Fin 256, bX V c t (ix2 r n) * bW V c t (ix2 k n) := by
  have e := (outsAt1_B V c t h0 h1).trans (Cases.out_B c (grid1.coords t) (ms1_0 t) (hs1_0 t) (ms1_1 t) (hs1_1 t) (ms1_2 t) (hs1_2 t)
    (ms1_3 t) (hs1_3 t) (fun h => h0 ((hcond1_0 t).mp h)) (fun h => h1 ((hcond1_1 t).mp h)) (iblk1 V c 0 t) (iblk1 V c 1 t) (iblk1 V c 2 t)
    (outsAt1 V c (t.val - 1) (Nat.lt_of_le_of_lt (Nat.sub_le _ _) t.isLt)))
  rw [congrFun e (ix2 r k), Step.pay2_apply]

/-- At the last step the bias row's entry is added on top. -/
theorem at_C (c : Dev nD) (t : Fin cfg1.N) (h0 : ¬t.val % 16 = 0) (h1 : t.val % 16 = 15) (r : Fin 1024) (k : Fin 4096) :
    outsAt1 V c t.val t.isLt (ix2 r k)
      = (outsAt1 V c (t.val - 1) (Nat.lt_of_le_of_lt (Nat.sub_le _ _) t.isLt) (ix2 r k)
        + ∑ n : Fin 256, bX V c t (ix2 r n) * bW V c t (ix2 k n))
        + bB V c t (ix2 (0 : Fin 1) k) := by
  have e := (outsAt1_C V c t h0 h1).trans (Cases.out_C c (grid1.coords t) (ms1_0 t) (hs1_0 t) (ms1_1 t) (hs1_1 t) (ms1_2 t) (hs1_2 t)
    (ms1_3 t) (hs1_3 t) (fun h => h0 ((hcond1_0 t).mp h)) ((hcond1_1 t).mpr h1) (iblk1 V c 0 t) (iblk1 V c 1 t) (iblk1 V c 2 t)
    (outsAt1 V c (t.val - 1) (Nat.lt_of_le_of_lt (Nat.sub_le _ _) t.isLt)))
  rw [congrFun e (ix2 r k), Step.pay3_apply, Step.pay2_apply]

/-! ## The running total, by induction on the point -/

/-- After point n the block's entry (r, k) is the running total of the products at array row R = 1024·(n / 16) + r over
    steps 0 … n % 16, plus the bias at k once the last step has run. -/
theorem acc_eq (c : Dev nD) : ∀ (n : ℕ) (hn : n < cfg1.N) (r : Fin 1024) (k : Fin 4096) (R : Fin 8192),
    R.val = 1024 * (n / 16) + r.val →
    outsAt1 V c n hn (ix2 r k)
      = runSum (prod V c R k) (n % 16) + (if n % 16 = 15 then Bs V c (ix2 (0 : Fin 1) k) else 0)
  | 0, hn, r, k, R, hR => by
    refine (at_A V c ⟨0, hn⟩ (Nat.zero_mod _) (by show ¬(0 % 16 = 15); decide) r k).trans ?_
    rw [step_sum V c ⟨0, hn⟩ r k R hR]
    show 0 + stepSum (prod V c R k) (0 % 16) = runSum (prod V c R k) (0 % 16) + (if 0 % 16 = 15 then _ else 0)
    rw [Nat.zero_mod, runSum_zero, if_neg (by decide), zero_add, add_zero]
  | n + 1, hn, r, k, R, hR => by
    have hN : n + 1 < 128 := lt_of_lt_of_eq hn N_1
    by_cases h0 : (n + 1) % 16 = 0
    · have h1 : ¬(n + 1) % 16 = 15 := by omega
      refine (at_A V c ⟨n + 1, hn⟩ h0 h1 r k).trans ?_
      rw [step_sum V c ⟨n + 1, hn⟩ r k R hR]
      show 0 + stepSum (prod V c R k) ((n + 1) % 16) = _
      rw [h0, runSum_zero, if_neg (by decide), zero_add, add_zero]
    · have hR' : R.val = 1024 * (n / 16) + r.val := by omega
      have hj : (n + 1) % 16 = n % 16 + 1 := by omega
      have hn15 : ¬n % 16 = 15 := by omega
      have ih := acc_eq c n (Nat.lt_of_succ_lt hn) r k R hR'
      rw [if_neg hn15, add_zero] at ih
      by_cases h1 : (n + 1) % 16 = 15
      · refine (at_C V c ⟨n + 1, hn⟩ h0 h1 r k).trans ?_
        rw [step_sum V c ⟨n + 1, hn⟩ r k R hR, blk2_read V c ⟨n + 1, hn⟩ k]
        show (outsAt1 V c n _ (ix2 r k) + stepSum (prod V c R k) ((n + 1) % 16)) + _ = _
        rw [ih, if_pos h1, hj, runSum_succ]
      · refine (at_B V c ⟨n + 1, hn⟩ h0 h1 r k).trans ?_
        rw [step_sum V c ⟨n + 1, hn⟩ r k R hR]
        show outsAt1 V c n _ (ix2 r k) + stepSum (prod V c R k) ((n + 1) % 16) = _
        rw [ih, if_neg h1, hj, runSum_succ, add_zero]

/-! ## What is written back, and the array at the region's exit -/

/-- The layer at array row R and output column k: the whole inner product plus the bias. -/
def lin (c : Dev nD) (R : Fin 8192) (k : Fin 4096) : EReal :=
  (∑ q : Fin 4096, prod V c R k q) + Bs V c (ix2 (0 : Fin 1) k)

/-- The result array as one function of the arrays the region reads. -/
def G (c : Dev nD) : Buf (Elt Ideal) ((c : Thread nD τ).loc main_v7) :=
  fun i => lin V c ⟨(i 0).val, (i 0).isLt⟩ ⟨(i 1).val, (i 1).isLt⟩

theorem G_apply (c : Dev nD) (R : Fin 8192) (k : Fin 4096) : G V c (ix2 R k) = lin V c R k := rfl

/-- A write-back happens after a row tile's last step, and writes that row tile of `G`. -/
theorem flushed_eq (c : Dev nD) (t : Fin cfg1.N) (hf : (cfg1.win 3).flush t = true) :
    (dat1 V c).flushed 3 t = ((cfg1.win 3).blk t).view.read (Elt Ideal) (G V c) := by
  have h15 : t.val % 16 = 15 := (flush1_3 t).mp hf
  have hN : t.val < 128 := lt_of_lt_of_eq t.isLt N_1
  obtain ⟨-, -, -, -, -, -, e0, e1⟩ := idx_facts t
  show (cfg1.win 3).cut (grid1.coords t) ((dat1 V c).after 3 t) = _
  rw [after1_3]
  funext j
  obtain ⟨r, k, rfl⟩ : ∃ (r : Fin 1024) (k : Fin 4096), j = ix2 r k :=
    ⟨⟨(j 0).val, (j 0).isLt⟩, ⟨(j 1).val, (j 1).isLt⟩, funext fun a => by match a with | ⟨0, _⟩ => rfl | ⟨1, _⟩ => rfl⟩
  have hemb : ((cfg1.win 3).blk t).view.emb (ix2 r k) = ix2 (⟨1024 * (t.val / 16) + r.val, by have := r.isLt; omega⟩ : Fin 8192) k :=
    funext fun a => Fin.ext (by
      match a with
      | ⟨0, _⟩ => show win1_3.index t (0 : Fin 2) * 1024 + 1 * r.val = 1024 * (t.val / 16) + r.val; rw [e0]; omega
      | ⟨1, _⟩ => show win1_3.index t (1 : Fin 2) * 4096 + 1 * k.val = k.val; rw [e1]; omega)
  show outsAt1 V c t.val t.isLt (ix2 r k) = G V c (((cfg1.win 3).blk t).view.emb (ix2 r k))
  rw [hemb, G_apply, acc_eq V c t.val t.isLt r k ⟨1024 * (t.val / 16) + r.val, by have := r.isLt; omega⟩ rfl, h15, runSum_last,
    if_pos rfl]
  rfl

/-- An index of the result array is in point t's block iff each coordinate is in the block's range on its axis. -/
theorem mem_blk (t : Fin cfg1.N) (i : S8192x4096.Idx) :
    i ∈ ((cfg1.win 3).blk t).view.set ↔ ∀ a : Fin 2, win1_3.index t a * S1024x4096.size a ≤ (i a).val
      ∧ (i a).val < win1_3.index t a * S1024x4096.size a + S1024x4096.size a := by
  show i ∈ ((View.whole main_v7).slice (win1_3.rect t)).set ↔ _
  rw [View.set_slice_whole, Rect.mem_set_unit]
  exact Iff.rfl

/-- Every entry of the result array lies in the block some write-back writes: row R in the block of row tile R / 1024. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  let t : Fin cfg1.N := ⟨16 * ((i 0).val / 1024) + 15, lt_of_lt_of_eq (by omega : 16 * ((i 0).val / 1024) + 15 < 128) N_1.symm⟩
  have ht : t.val = 16 * ((i 0).val / 1024) + 15 := rfl
  obtain ⟨-, -, -, -, -, -, e0, e1⟩ := idx_facts t
  refine ⟨t, (flush1_3 t).mpr (by rw [ht]; omega), ?_⟩
  rw [mem_blk]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 4096 ≤ (i 1).val ∧ (i 1).val < win1_3.index t (1 : Fin 2) * 4096 + 4096
    rw [e1]; omega

/-- At the region's exit the result array holds x · wᵀ + bias of the arrays the region read. -/
theorem final (c : Dev nD) : (dat1 V c).arrAt 3 cfg1.N = G V c :=
  (dat1 V c).arrAt_eq_of_cover 3 (G V c) (fun t hf => flushed_eq V c t hf) (cover)

end Cert.KernelIdeal.Acc

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KernelValue.lean ====
/-
  The idealized kernel program's result, as a function of the launch arrays, on the extended reals.

  Before the first region five reshapes lay the scales and zero points out as [4096, 64] tables, mu1 as a row, mu2 as
  a column and the bias as a row; a reshape is read at an entry by matching row-major positions. The first region
  leaves the dequantized weight; one reshape merges the activations' two leading axes (row b·2048 + s); the second
  region leaves activations · weightᵀ + bias; the last reshape splits the rows back into (b, s). Reading each segment
  at an entry gives the layer of Spec at (b, s, k).
-/
import proofs.«172664_j64330020159902_2_alg».proof.Proof.Gen.KernelIdeal.Frame
import proofs.«172664_j64330020159902_2_alg».proof.Proof.Dequant
import proofs.«172664_j64330020159902_2_alg».proof.Proof.MatmulAcc
import proofs.«172664_j64330020159902_2_alg».proof.Proof.LibFlatten
import proofs.«172664_j64330020159902_2_alg».proof.Proof.LibSplitLast
import proofs.«172664_j64330020159902_2_alg».proof.Proof.LibKeepdims
import proofs.«172664_j64330020159902_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.StableHlo
open Cert.Spec

variable (m : (ℓ : Loc nD τ sig) → Buf (Elt Ideal) ℓ) (ρ : Dev nD → PrngReg)

/-- The launch arrays, as functions into the extended reals (the weight into 32-bit words). -/
abbrev a0 (c : Dev nD) : S4x2048x4096.Idx → EReal := m ((c : Thread nD τ).loc main_arg0)
abbrev a1 (c : Dev nD) : S4096x64x1.Idx → EReal := m ((c : Thread nD τ).loc main_arg1)
abbrev a2 (c : Dev nD) : S4096x64x1.Idx → EReal := m ((c : Thread nD τ).loc main_arg2)
abbrev a3 (c : Dev nD) : S4096.Idx → EReal := m ((c : Thread nD τ).loc main_arg3)
abbrev a4 (c : Dev nD) : S4096.Idx → EReal := m ((c : Thread nD τ).loc main_arg4)
abbrev a5 (c : Dev nD) : S4096.Idx → EReal := m ((c : Thread nD τ).loc main_arg5)
abbrev a6 (c : Dev nD) : (⟨S4096x4096, .i32⟩ : BufTy).Contents (Elt Ideal) := m ((c : Thread nD τ).loc main_arg6)

/-! ## What the first region finds -/

theorem scales_eq (c : Dev nD) : Deq.Sc (V1 m ρ) c = shapeCast S4096x64 (a1 m c) shapeCasts_S4096x64x1_S4096x64 := by
  show StableHlo.after hostOps0 (W0 m ρ c) (Proc.devRef .tc main_v0) = _
  after_results <;> rfl

theorem zeros_eq (c : Dev nD) : Deq.Z (V1 m ρ) c = shapeCast S4096x64 (a2 m c) shapeCasts_S4096x64x1_S4096x64 := by
  show StableHlo.after hostOps0 (W0 m ρ c) (Proc.devRef .tc main_v1) = _
  after_results <;> rfl

theorem mu1_eq (c : Dev nD) : Deq.M1 (V1 m ρ) c = shapeCast S1x4096 (a3 m c) shapeCasts_S4096_S1x4096 := by
  show StableHlo.after hostOps0 (W0 m ρ c) (Proc.devRef .tc main_v2) = _
  after_results <;> rfl

theorem mu2_eq (c : Dev nD) : Deq.M2 (V1 m ρ) c = shapeCast S4096x1 (a4 m c) shapeCasts_S4096_S4096x1 := by
  show StableHlo.after hostOps0 (W0 m ρ c) (Proc.devRef .tc main_v3) = _
  after_results <;> rfl

theorem wq_eq (c : Dev nD) : Deq.Q (V1 m ρ) c = a6 m c := by
  show StableHlo.after hostOps0 (W0 m ρ c) (Proc.devRef .tc main_arg6) = _
  after_results <;> rfl

/-- The weight the first region leaves, at (k, n), is Spec's weight of the launch arrays. -/
theorem weight_at (c : Dev nD) (k n : Fin 4096) :
    Deq.wdV (V1 m ρ) c k n = wd (a1 m c) (a2 m c) (a3 m c) (a4 m c) (a6 m c) k n := by
  unfold Deq.wdV wd
  rw [scales_eq, zeros_eq, mu1_eq, mu2_eq, wq_eq,
    Cert.LibSplitLast.shapeCast_abc_an_apply (a1 m c) shapeCasts_S4096x64x1_S4096x64 rfl k (grp n) (0 : Fin 1) (grp n) (by simp),
    Cert.LibSplitLast.shapeCast_abc_an_apply (a2 m c) shapeCasts_S4096x64x1_S4096x64 rfl k (grp n) (0 : Fin 1) (grp n) (by simp),
    shapeCast_a_1a_apply (a3 m c) shapeCasts_S4096_S1x4096 (0 : Fin 1) n,
    Cert.LibKeepdims.shapeCast_a_a1_apply (a4 m c) shapeCasts_S4096_S4096x1 k (0 : Fin 1)]

/-! ## What the second region finds -/

theorem acts_eq (c : Dev nD) : Acc.X (V3 m ρ) c = shapeCast S8192x4096 (a0 m c) shapeCasts_S4x2048x4096_S8192x4096 := by
  have e : W2 m ρ c (Proc.devRef .tc main_arg0) = m ((c : Thread nD τ).loc main_arg0) := by
    rw [W2_of_ne m ρ c main_arg0 (by decide)]
    show StableHlo.after hostOps0 (W0 m ρ c) (Proc.devRef .tc main_arg0) = _
    after_results <;> rfl
  show StableHlo.after hostOps1 (W2 m ρ c) (Proc.devRef .tc main_v6) = _
  after_results
  rw [e]
  rfl

theorem weight_eq (c : Dev nD) : Acc.Wm (V3 m ρ) c = Deq.G (V1 m ρ) c := by
  show StableHlo.after hostOps1 (W2 m ρ c) (Proc.devRef .tc main_v5) = _
  after_results
  exact (W2_arr m ρ c 5).trans (Deq.final (V1 m ρ) c)

theorem bias_eq (c : Dev nD) : Acc.Bs (V3 m ρ) c = shapeCast S1x4096 (a5 m c) shapeCasts_S4096_S1x4096 := by
  have e : W2 m ρ c (Proc.devRef .tc main_v4) = shapeCast S1x4096 (a5 m c) shapeCasts_S4096_S1x4096 := by
    rw [W2_of_ne m ρ c main_v4 (by decide)]
    show StableHlo.after hostOps0 (W0 m ρ c) (Proc.devRef .tc main_v4) = _
    after_results <;> rfl
  show StableHlo.after hostOps1 (W2 m ρ c) (Proc.devRef .tc main_v4) = _
  after_results
  exact e

/-- What the second region leaves at array row b·2048 + s and output column k is the layer at (b, s, k). -/
theorem lin_at (c : Dev nD) (b : Fin 4) (s : Fin 2048) (k : Fin 4096) (R : Fin 8192) (hR : R.val = b.val * 2048 + s.val) :
    Acc.lin (V3 m ρ) c R k = out (a0 m c) (a1 m c) (a2 m c) (a3 m c) (a4 m c) (a5 m c) (a6 m c) b s k := by
  unfold Acc.lin out
  refine congrArg₂ (· + ·) (Finset.sum_congr rfl fun q _ => ?_) ?_
  · show Acc.X (V3 m ρ) c (ix2 R q) * Acc.Wm (V3 m ρ) c (ix2 k q) = _
    rw [acts_eq, weight_eq, Deq.G_apply, weight_at,
      Cert.LibFlatten.shapeCast_abc_nc_apply (a0 m c) shapeCasts_S4x2048x4096_S8192x4096 b s q R hR]
  · rw [bias_eq, shapeCast_a_1a_apply (a5 m c) shapeCasts_S4096_S1x4096 (0 : Fin 1) k]

/-! ## The result buffer -/

/-- At the end of @main the result buffer holds the layer of the launch arrays. -/
theorem result_eq (c : Dev nD) :
    W5 m ρ c (Proc.devRef .tc main_v8) = res (a0 m c) (a1 m c) (a2 m c) (a3 m c) (a4 m c) (a5 m c) (a6 m c) := by
  have e : W4 m ρ c (Proc.devRef .tc main_v7) = Acc.G (V3 m ρ) c := (W4_arr m ρ c 3).trans (Acc.final (V3 m ρ) c)
  have e5 : W5 m ρ c (Proc.devRef .tc main_v8)
      = shapeCast S4x2048x4096 (Acc.G (V3 m ρ) c) shapeCasts_S8192x4096_S4x2048x4096 := by
    show StableHlo.after hostOps2 (W4 m ρ c) (Proc.devRef .tc main_v8) = _
    after_results
    rw [e]
    rfl
  rw [e5]
  funext i
  obtain ⟨b, s, k, rfl⟩ : ∃ (b : Fin 4) (s : Fin 2048) (k : Fin 4096), i = ix3 b s k := ⟨i 0, i 1, i 2, eq_ix3 i⟩
  rw [res_apply,
    Cert.LibFlatten.shapeCast_nc_abc_apply (Acc.G (V3 m ρ) c) shapeCasts_S8192x4096_S4x2048x4096 b s k
      (⟨b.val * 2048 + s.val, by have := b.isLt; have := s.isLt; omega⟩ : Fin 8192) rfl,
    Acc.G_apply]
  exact lin_at m ρ c b s k _ rfl

end Cert.KernelIdeal.Whole

end
-- ==== Proof.Reference.lean ====
/-
  The reference program's result is the layer of Spec: its weight is ((q − zero) · scale) · mu2 · mu1 with the group of
  column n found by regrouping the 4096 columns as 64 × 64 and back (column n is position n % 64 of group n / 64), and
  its result is the contraction of the activations' last axis with the weight's columns, plus the bias along the last
  axis.
-/
import proofs.«172664_j64330020159902_2_alg».proof.Proof.Gen.ReferenceIdeal.Read
import proofs.«172664_j64330020159902_2_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Spec

/-- Regrouping the columns as 64 × 64 and back returns to entry (k, n). -/
theorem idx_q (k n : Fin 4096) : idx_main_v1 (idx_main_v6 (ix2 k n)) = ix2 k n :=
  funext fun a => Fin.ext (by
    have hk := k.isLt; have hn := n.isLt
    match a with
    | ⟨0, _⟩ =>
      show ((((k.val * 4096 + n.val) / 4096) * 64 + (k.val * 4096 + n.val) / 64 % 64) * 64 + (k.val * 4096 + n.val) % 64) / 4096 = k.val
      omega
    | ⟨1, _⟩ =>
      show ((((k.val * 4096 + n.val) / 4096) * 64 + (k.val * 4096 + n.val) / 64 % 64) * 64 + (k.val * 4096 + n.val) % 64) % 4096 = n.val
      omega)

/-- The zero point and scale read for entry (k, n) are those of row k, group n / 64. -/
theorem idx_z (k n : Fin 4096) : idx_main_v2 (idx_main_v6 (ix2 k n)) = ix3 k (grp n) (0 : Fin 1) :=
  funext fun a => Fin.ext (by
    have hk := k.isLt; have hn := n.isLt
    match a with
    | ⟨0, _⟩ => show (k.val * 4096 + n.val) / 4096 = k.val; omega
    | ⟨1, _⟩ => show (k.val * 4096 + n.val) / 64 % 64 = n.val / 64; omega
    | ⟨2, _⟩ => rfl)

theorem idx_s (k n : Fin 4096) : idx_main_v4 (idx_main_v6 (ix2 k n)) = ix3 k (grp n) (0 : Fin 1) :=
  funext fun a => Fin.ext (by
    have hk := k.isLt; have hn := n.isLt
    match a with
    | ⟨0, _⟩ => show (k.val * 4096 + n.val) / 4096 = k.val; omega
    | ⟨1, _⟩ => show (k.val * 4096 + n.val) / 64 % 64 = n.val / 64; omega
    | ⟨2, _⟩ => rfl)

/-- The row factor read for entry (k, n) is mu2 at k, the column factor mu1 at n. -/
theorem idx_m2 (k n : Fin 4096) : idx_main_v7 (idx_main_v8 (ix2 k n)) = ix1 k :=
  funext fun a => Fin.ext (by match a with | ⟨0, _⟩ => rfl)

theorem idx_m1 (k n : Fin 4096) : idx_main_v10 (idx_main_v11 (ix2 k n)) = ix1 n :=
  funext fun a => Fin.ext (by match a with | ⟨0, _⟩ => rfl)

/-- The reference's weight at (k, n). -/
theorem weight_eq (x1 x2 : (⟨S4096x64x1, .f32⟩ : BufTy).Contents (Elt Ideal)) (x3 x4 : (⟨S4096, .f32⟩ : BufTy).Contents (Elt Ideal))
    (x6 : (⟨S4096x4096, .i32⟩ : BufTy).Contents (Elt Ideal)) (k n : Fin 4096) :
    val_main_v12 (F := Ideal) x1 x2 x3 x4 x6 (ix2 k n) = wd x1 x2 x3 x4 x6 k n := by
  rw [val_main_v12_apply, val_main_v9_apply, val_main_v6_apply, val_main_v5_apply, val_main_v3_apply, val_main_v1_apply,
    val_main_v0_apply, val_main_v2_apply, val_main_v4_apply, val_main_v8_apply, val_main_v7_apply, val_main_v11_apply,
    val_main_v10_apply, idx_q, idx_z, idx_s, idx_m2, idx_m1]
  rfl

/-- The contraction reads the activations at (b, s, n) and the weight at (k, n). -/
theorem idx_l (b : Fin 4) (s : Fin 2048) (k n : Fin 4096) : lidx_main_v13 (ix3 b s k) n = ix3 b s n :=
  funext fun a => Fin.ext (by match a with | ⟨0, _⟩ => rfl | ⟨1, _⟩ => rfl | ⟨2, _⟩ => rfl)

theorem idx_r (b : Fin 4) (s : Fin 2048) (k n : Fin 4096) : ridx_main_v13 (ix3 b s k) n = ix2 k n :=
  funext fun a => Fin.ext (by match a with | ⟨0, _⟩ => rfl | ⟨1, _⟩ => rfl)

/-- The bias read for entry (b, s, k) is the bias at k. -/
theorem idx_b (b : Fin 4) (s : Fin 2048) (k : Fin 4096) : idx_main_v14 (idx_main_v15 (ix3 b s k)) = ix1 k :=
  funext fun a => Fin.ext (by match a with | ⟨0, _⟩ => rfl)

/-- The reference's result at (b, s, k) is the layer. -/
theorem result_eq (x0 : (⟨S4x2048x4096, .f32⟩ : BufTy).Contents (Elt Ideal)) (x1 x2 : (⟨S4096x64x1, .f32⟩ : BufTy).Contents (Elt Ideal))
    (x3 x4 x5 : (⟨S4096, .f32⟩ : BufTy).Contents (Elt Ideal)) (x6 : (⟨S4096x4096, .i32⟩ : BufTy).Contents (Elt Ideal))
    (b : Fin 4) (s : Fin 2048) (k : Fin 4096) :
    val_main_v16 (F := Ideal) x0 x1 x2 x3 x4 x5 x6 (ix3 b s k) = out x0 x1 x2 x3 x4 x5 x6 b s k := by
  rw [val_main_v16_apply, val_main_v13_apply, val_main_v15_apply, val_main_v14_apply, idx_b]
  unfold out
  refine congrArg₂ (· + ·) (Finset.sum_congr rfl fun n _ => ?_) rfl
  rw [idx_l, idx_r, weight_eq]

/-- The reference's result as a whole array. -/
theorem result_fn (x0 : (⟨S4x2048x4096, .f32⟩ : BufTy).Contents (Elt Ideal)) (x1 x2 : (⟨S4096x64x1, .f32⟩ : BufTy).Contents (Elt Ideal))
    (x3 x4 x5 : (⟨S4096, .f32⟩ : BufTy).Contents (Elt Ideal)) (x6 : (⟨S4096x4096, .i32⟩ : BufTy).Contents (Elt Ideal)) :
    val_main_v16 (F := Ideal) x0 x1 x2 x3 x4 x5 x6 = res x0 x1 x2 x3 x4 x5 x6 := by
  funext i
  obtain ⟨b, s, k, rfl⟩ : ∃ (b : Fin 4) (s : Fin 2048) (k : Fin 4096), i = ix3 b s k := ⟨i 0, i 1, i 2, eq_ix3 i⟩
  rw [result_eq, res_apply]

end Cert.ReferenceIdeal.RefValue

end
-- ==== Proof.lean ====
/-
  A quantized linear layer: 4-bit weights stored in 32-bit words are dequantized group by group,
  W(k, n) = ((q(k, n) − zero(k, n / 64)) · scale(k, n / 64)) · mu2(k) · mu1(n), and the layer is
  y(b, s, k) = Σₙ x(b, s, n) · W(k, n) + bias(k).

  The kernel program computes W in one grid of 16 row blocks and y in a second grid of 8 row tiles × 16 column
  steps, adding each step's partial inner product into an output block that is reset at a tile's first step and
  gets the bias at its last; reshapes before, between and after the two grids only re-lay the arrays. The reference
  computes W with the columns regrouped 64 × 64 and y as one contraction over all 4096 columns.

  On the extended reals both are the same function of the seven argument arrays, entry by entry: the two weights are
  the same expression in the same order, and a sum over 4096 columns taken in sixteen consecutive steps of 256 is the
  whole sum because addition is associative and commutative. No finiteness of the inputs is used.

  The three programs also run to completion without a fault and leave their arguments as launched, and the
  idealized kernel program is the kernel program's own text read on the extended reals (no operation rewritten).
-/
import proofs.«172664_j64330020159902_2_alg».proof.Defs
import proofs.«172664_j64330020159902_2_alg».proof.Proof.Gen.Kernel
import proofs.«172664_j64330020159902_2_alg».proof.Proof.Gen.Kernel.Frame
import proofs.«172664_j64330020159902_2_alg».proof.Proof.Gen.KernelIdeal
import proofs.«172664_j64330020159902_2_alg».proof.Proof.Gen.KernelIdeal.Frame
import proofs.«172664_j64330020159902_2_alg».proof.Proof.Gen.ReferenceIdeal
import proofs.«172664_j64330020159902_2_alg».proof.Proof.Gen.ReferenceIdeal.Run
import proofs.«172664_j64330020159902_2_alg».proof.Proof.Gen.ReferenceIdeal.Read
import proofs.«172664_j64330020159902_2_alg».proof.Proof.Gen.Pre_finite_inputs
import proofs.«172664_j64330020159902_2_alg».proof.Proof.ValueRun
import proofs.«172664_j64330020159902_2_alg».proof.Proof.KernelValue
import proofs.«172664_j64330020159902_2_alg».proof.Proof.Reference
import Idealize.ShloMosaic.Adequacy
import Idealize.ShloMosaic.Init

noncomputable section

namespace Cert.Proof

open Idealize.ShloMosaic Idealize.SL.Sem

/-- The kernel program runs to completion and leaves its arguments as launched. -/
theorem frame_k : Cert.frame_Kernel :=
  fun m ρ _ => Cert.Kernel.Gen.frame m ρ

/-- So does its reading on the extended reals. -/
theorem frame_ki : Cert.frame_KernelIdeal :=
  fun m ρ _ => Cert.KernelIdeal.Gen.frame m ρ

/-- The reference is a straight line of host operations: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- No operation of the kernel program was rewritten when it was read on the extended reals. -/
theorem preserves : Cert.preserves_Kernel_KernelIdeal := trivial

/-- From memories that agree on the seven arguments both programs end with the layer of those arguments in their
    result buffer: the kernel program by reading its two grids and its reshapes at an entry, the reference by reading
    its seventeen operations at an entry. -/
theorem algebraic : Cert.algebraic_KernelIdeal_ReferenceIdeal := by
  intro m ρ m' ρ' _ hagree
  refine ⟨fun c => Cert.Spec.res (Cert.KernelIdeal.Whole.a0 m c) (Cert.KernelIdeal.Whole.a1 m c) (Cert.KernelIdeal.Whole.a2 m c)
      (Cert.KernelIdeal.Whole.a3 m c) (Cert.KernelIdeal.Whole.a4 m c) (Cert.KernelIdeal.Whole.a5 m c) (Cert.KernelIdeal.Whole.a6 m c),
    ?_, ?_⟩
  · exact (θ_run Cert.KernelIdeal.defs _ _).mono
      (fun _ h c => ⟨(h c).1.trans (Cert.KernelIdeal.Whole.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.result_fn, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
